-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x40 .f32) (main_arg6 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S5000x128 : Shape := ⟨2, ![5000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 53
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S50000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x40, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x40, .f32⟩
  | .hbm, ⟨44, _⟩ => ⟨S800000x1, .f32⟩
  | .hbm, ⟨45, _⟩ => ⟨S800000x40, .f32⟩
  | .hbm, ⟨46, _⟩ => ⟨S800000x40, .f32⟩
  | .hbm, ⟨47, _⟩ => ⟨S_, .f32⟩
  | .hbm, ⟨48, _⟩ => ⟨S50000x40, .f32⟩
  | .hbm, ⟨49, _⟩ => ⟨S800000x1, .i32⟩
  | .hbm, ⟨50, _⟩ => ⟨S50000x40, .f32⟩
  | .hbm, ⟨51, _⟩ => ⟨S1x40, .f32⟩
  | .hbm, ⟨52, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S50000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x40, .f32⟩
  | .hbm, ⟨35, _⟩ => ⟨S1x800000, .i32⟩
  | .hbm, ⟨36, _⟩ => ⟨S800000, .i32⟩
  | .hbm, ⟨37, _⟩ => ⟨S1x800000, .i32⟩
  | .hbm, ⟨38, _⟩ => ⟨S800000, .i32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x40, .f32⟩
  | .hbm, ⟨48, _⟩ => ⟨S800000x1, .f32⟩
  | .hbm, ⟨49, _⟩ => ⟨S800000x40, .f32⟩
  | .hbm, ⟨50, _⟩ => ⟨S800000x40, .f32⟩
  | .hbm, ⟨51, _⟩ => ⟨S_, .f32⟩
  | .hbm, ⟨52, _⟩ => ⟨S50000x40, .f32⟩
  | .hbm, ⟨53, _⟩ => ⟨S800000x1, .i32⟩
  | .hbm, ⟨54, _⟩ => ⟨S50000x40, .f32⟩
  | .hbm, ⟨55, _⟩ => ⟨S1x40, .f32⟩
  | .hbm, ⟨56, _⟩ => ⟨S50000x40, .f32⟩
  | .hbm, ⟨57, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The idealized kernel's run with its result named.

  @main is six segments: the first projection, the first stretch of host operations (gather, scale, scatter-add, and the
  bias row's reshape), the bias-and-rectifier region, the second projection, the second stretch, the second bias region.
  Each segment leaves every buffer at a known function of what the previous one left; the last of these contents is
  `Gen.W6`. So every weakly fair execution terminates with the result buffer at `W6`'s value there and the seven
  argument arrays as launched.
-/
import proofs.«171624_j730144440782_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding what the last
    segment boundary's contents give it and the argument arrays unchanged. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.BlockValue.lean ====
/-
  The four kernel bodies, each read at one entry (p, q) of the block it stores, over the extended reals.

  A block is 5000 consecutive rows of a [50000, d] array. The two projection bodies store the matrix product of the
  block with the whole weight matrix: entry (p, q) is the sum over k < 128 of block(p, k) · W(k, q). The two bias
  bodies add the bias row, held as a [1, d] array, to every row of the block; the first layer's also takes the
  maximum with zero.
-/
import proofs.«171624_j730144440782_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The first layer's projection: a [5000, 128] block times the [128, 128] weights -/

/-- The left operand's row is the output entry's row. -/
theorem proj1_lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem proj1_lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row is the contracted coordinate. -/
theorem proj1_rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- The right operand's column is the output entry's column. -/
theorem proj1_rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product of a block of 5000 rows with the weights: the sum over the 128 contracted
    coordinates k of (row p, k) times (k, column q). The accumulator is the zero splat and contributes nothing;
    rounding the operands to bf16 is the identity on extended reals. -/
theorem proj1_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  simp only [matmul, shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact proj1_lhs_row _ _
    | ⟨1, _⟩ => exact (proj1_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (proj1_rhs_row _ _).trans hk
    | ⟨1, _⟩ => exact proj1_rhs_col _ _)
  show x (dot_S5000x128_S128x128_S5000x128_1_0_0_1_n_n.lhsIdx (ix2 p q) _) * w (dot_S5000x128_S128x128_S5000x128_1_0_0_1_n_n.rhsIdx (ix2 p q) _) = _
  rw [el, er]

/-! ## The second layer's projection: a [5000, 128] block times the [128, 40] weights -/

/-- The left operand's row is the output entry's row. -/
theorem proj2_lhs_row (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- The left operand's column is the contracted coordinate. -/
theorem proj2_lhs_col (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
/-- The right operand's row is the contracted coordinate. -/
theorem proj2_rhs_row (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
/-- The right operand's column is the output entry's column. -/
theorem proj2_rhs_col (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (p, q) of the product of a block of 5000 rows with the weights: the sum over the 128 contracted
    coordinates k of (row p, k) times (k, column q). The accumulator is the zero splat and contributes nothing;
    rounding the operands to bf16 is the identity on extended reals. -/
theorem proj2_apply (x : FVec Ideal S5000x128 .f32) (w : FVec Ideal S128x40 .f32) (p : Fin 5000) (q : Fin 40) :
    k2_pay1 (F := Ideal) x w (ix2 p q) = ∑ k : Fin 128, x (ix2 p k) * w (ix2 k q) := by
  unfold k2_pay1
  simp only [matmul, shapeCast_self]
  refine (Ideal.matmul_constant_zero_apply dot_S5000x128_S128x40_S5000x40_1_0_0_1_n_n none _ _ (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact proj2_lhs_row _ _
    | ⟨1, _⟩ => exact (proj2_lhs_col _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (proj2_rhs_row _ _).trans hk
    | ⟨1, _⟩ => exact proj2_rhs_col _ _)
  show x (dot_S5000x128_S128x40_S5000x40_1_0_0_1_n_n.lhsIdx (ix2 p q) _) * w (dot_S5000x128_S128x40_S5000x40_1_0_0_1_n_n.rhsIdx (ix2 p q) _) = _
  rw [el, er]

/-! ## The bias bodies -/

/-- Entry (p, q) of the first layer's bias body: the aggregated entry plus the bias of column q, then the maximum
    with zero. -/
theorem biasRelu_apply (x : FVec Ideal S5000x128 .f32) (b : FVec Ideal S1x128 .f32) (p : Fin 5000) (q : Fin 128) :
    k1_pay1 (F := Ideal) x b (ix2 p q) = max (x (ix2 p q) + b (ix2 0 q)) (Ideal.ofBits .f32 0x00000000#32) := by
  unfold k1_pay1
  simp only [shapeCast_self]
  show max (x (ix2 p q) + broadcastTo S5000x128 b broadcasts_S1x128_S5000x128 (ix2 p q)) _ = _
  rw [broadcastTo_apply b broadcasts_S1x128_S5000x128 (ix2 p q) (ix2 0 q)
    (by intro a; match a with | ⟨0, _⟩ => rfl | ⟨1, _⟩ => rfl)]
  rfl

/-- Entry (p, q) of the second layer's bias body: the aggregated entry plus the bias of column q. -/
theorem bias_apply (x : FVec Ideal S5000x40 .f32) (b : FVec Ideal S1x40 .f32) (p : Fin 5000) (q : Fin 40) :
    k3_pay1 (F := Ideal) x b (ix2 p q) = x (ix2 p q) + b (ix2 0 q) := by
  unfold k3_pay1
  simp only [shapeCast_self]
  show x (ix2 p q) + broadcastTo S5000x40 b broadcasts_S1x40_S5000x40 (ix2 p q) = _
  rw [broadcastTo_apply b broadcasts_S1x40_S5000x40 (ix2 p q) (ix2 0 q)
    (by intro a; match a with | ⟨0, _⟩ => rfl | ⟨1, _⟩ => rfl)]

end Cert.KernelIdeal.BlockValue

end
-- ==== Proof.LayerSpec.lean ====
/-
  The dense layers of the two graph convolutions, as functions of whole arrays over the extended reals, entry by entry.

  `project x W` is the matrix product x · W of node features [50000, 128] with a weight matrix [128, d]: entry
  (r, q) is the sum over the 128 contracted coordinates k of x(r, k) · W(k, q). `addBiasRelu a b` adds the bias row b,
  held as a [1, 128] array, to every row of the aggregated messages a and takes the maximum with zero; `addBias` is the
  second layer's, without the maximum. The zero is written as the float word both programs print for it.
-/
import Idealize.ShloMosaic.Lib.ValueIdx
import Idealize.ShloMosaic.PureOps.Ideal

noncomputable section

open scoped BigOperators

namespace Cert.Gcn

open Idealize.ShloMosaic Idealize.ShloMosaic.ValueIdx

/-- x · W for the first layer: [50000, 128] times [128, 128]. -/
def project1 (x : FVec Ideal ⟨2, ![50000, 128]⟩ .f32) (w : FVec Ideal ⟨2, ![128, 128]⟩ .f32) :
    FVec Ideal ⟨2, ![50000, 128]⟩ .f32 :=
  fun i => ∑ k : Fin 128, x (ix2 (i 0) k) * w (ix2 k (i 1))

/-- h · W for the second layer: [50000, 128] times [128, 40]. -/
def project2 (x : FVec Ideal ⟨2, ![50000, 128]⟩ .f32) (w : FVec Ideal ⟨2, ![128, 40]⟩ .f32) :
    FVec Ideal ⟨2, ![50000, 40]⟩ .f32 :=
  fun i => ∑ k : Fin 128, x (ix2 (i 0) k) * w (ix2 k (i 1))

/-- max(a + b, 0), the bias a [1, 128] row added to each of the 50000 rows. -/
def addBiasRelu (a : FVec Ideal ⟨2, ![50000, 128]⟩ .f32) (b : FVec Ideal ⟨2, ![1, 128]⟩ .f32) :
    FVec Ideal ⟨2, ![50000, 128]⟩ .f32 :=
  fun i => max (a i + b (ix2 0 (i 1))) (Ideal.ofBits .f32 0x00000000#32)

/-- a + b, the bias a [1, 40] row added to each of the 50000 rows. -/
def addBias (a : FVec Ideal ⟨2, ![50000, 40]⟩ .f32) (b : FVec Ideal ⟨2, ![1, 40]⟩ .f32) :
    FVec Ideal ⟨2, ![50000, 40]⟩ .f32 :=
  fun i => a i + b (ix2 0 (i 1))

end Cert.Gcn

end
-- ==== Proof.Region0.lean ====
/-
  Region 0, the first layer's projection, from blocks to the whole array.

  The grid has ten points; point t reads rows 5000·t … 5000·t + 4999 of the node features (all 128 columns), the whole
  weight matrix, and writes the same rows of the result. So what point t writes back is block t of x · W₁, the blocks
  tile the 50000 rows, and the array after the region is x · W₁ of the arrays the region was entered with.
-/
import proofs.«171624_j730144440782_1_alg».proof.Proof.Gen.KernelIdeal.Frame
import proofs.«171624_j730144440782_1_alg».proof.Proof.BlockValue
import proofs.«171624_j730144440782_1_alg».proof.Proof.LayerSpec

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the features' and the result's blocks are block row t, column block 0; the weights'
    block is always the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W₁. -/
theorem flushed_eq (c : Dev nD) (t : Fin cfg0.N) :
    (dat0 V c).flushed 2 t = ((cfg0.win 2).blk t).view.read (Elt Ideal) (Cert.Gcn.project1 (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_indices t
  funext j
  obtain ⟨p, q, rfl⟩ : ∃ (p : Fin 5000) (q : Fin 128), j = ix2 p q := ⟨j 0, j 1, eq_ix2 j⟩
  refine (BlockValue.proj1_apply (iblk0 V c 0 t) (iblk0 V c 1 t) p q).trans ?_
  show _ = Cert.Gcn.project1 (V c main_arg0) (V c main_arg3) (((cfg0.win 2).blk t).view.emb (ix2 p q))
  unfold Cert.Gcn.project1
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q) = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An entry of the result array lies in point t's block iff each coordinate lies in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r lies in the block of point r / 5000: the ten blocks tile the array. -/
theorem blocks_cover (i : S50000x128.Idx) : ∃ t : Fin cfg0.N, (cfg0.win 2).flush t = true ∧ i ∈ ((cfg0.win 2).blk t).view.set := by
  have h0 : (i 0).val < 50000 := (i 0).isLt
  have h1 : (i 1).val < 128 := (i 1).isLt
  have hN : grid0.N = 10 := N_0
  let t : Fin cfg0.N := ⟨(i 0).val / 5000, by show _ < grid0.N; omega⟩
  refine ⟨t, flush0_2 t, ?_⟩
  rw [mem_block]
  obtain ⟨e0, e1, e2, e3, e4, e5⟩ := block_indices t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is x · W₁ of the arrays the region was entered with. -/
theorem array_eq (c : Dev nD) :
    (dat0 V c).arrAt 2 cfg0.N = Cert.Gcn.project1 (V c main_arg0) (V c main_arg3) :=
  (dat0 V c).arrAt_eq_of_cover 2 (Cert.Gcn.project1 (V c main_arg0) (V c main_arg3)) (fun t _ => flushed_eq V c t) blocks_cover

end Cert.KernelIdeal.Region0

end
-- ==== Proof.Region1.lean ====
/-
  Region 1, the first layer's bias and rectifier, from blocks to the whole array.

  The grid has ten points; point t reads rows 5000·t … 5000·t + 4999 of the aggregated messages, the whole bias row
  [1, 128], and writes the same rows of max(a + b, 0). The blocks tile the 50000 rows, so the array after the region is
  max(a + b, 0) of the arrays the region was entered with.
-/
import proofs.«171624_j730144440782_1_alg».proof.Proof.Gen.KernelIdeal.Frame
import proofs.«171624_j730144440782_1_alg».proof.Proof.BlockValue
import proofs.«171624_j730144440782_1_alg».proof.Proof.LayerSpec

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the aggregated messages' and the result's blocks are block row t, column block 0;
    the bias row's block is always the whole row. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the biased array. -/
theorem flushed_eq (c : Dev nD) (t : Fin cfg1.N) :
    (dat1 V c).flushed 2 t = ((cfg1.win 2).blk t).view.read (Elt Ideal) (Cert.Gcn.addBiasRelu (V c main_v17) (V c main_v18)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := block_indices t
  funext j
  obtain ⟨p, q, rfl⟩ : ∃ (p : Fin 5000) (q : Fin 128), j = ix2 p q := ⟨j 0, j 1, eq_ix2 j⟩
  refine (BlockValue.biasRelu_apply (iblk1 V c 0 t) (iblk1 V c 1 t) p q).trans ?_
  show _ = Cert.Gcn.addBiasRelu (V c main_v17) (V c main_v18) (((cfg1.win 2).blk t).view.emb (ix2 p q))
  unfold Cert.Gcn.addBiasRelu
  have hx : iblk1 V c 0 t (ix2 p q) = V c main_v17 (((cfg1.win 2).blk t).view.emb (ix2 p q)) := by
    show V c main_v17 (((cfg1.win 0).blk t).view.emb (ix2 p q)) = _
    refine congrArg (V c main_v17) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hb : iblk1 V c 1 t (ix2 0 q) = V c main_v18 (ix2 0 ((((cfg1.win 2).blk t).view.emb (ix2 p q)) 1)) := by
    show V c main_v18 (((cfg1.win 1).blk t).view.emb (ix2 0 q)) = _
    refine congrArg (V c main_v18) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hx, hb]

/-- An entry of the result array lies in point t's block iff each coordinate lies in the block's range. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v19).slice (win1_2.rect t)).set ↔ _
  rw [View.set_slice_whole, Rect.mem_set_unit]
  exact Iff.rfl

/-- Row r lies in the block of point r / 5000: the ten blocks tile the array. -/
theorem blocks_cover (i : S50000x128.Idx) : ∃ t : Fin cfg1.N, (cfg1.win 2).flush t = true ∧ i ∈ ((cfg1.win 2).blk t).view.set := by
  have h0 : (i 0).val < 50000 := (i 0).isLt
  have h1 : (i 1).val < 128 := (i 1).isLt
  have hN : grid1.N = 10 := N_1
  let t : Fin cfg1.N := ⟨(i 0).val / 5000, by show _ < grid1.N; omega⟩
  refine ⟨t, flush1_2 t, ?_⟩
  rw [mem_block]
  obtain ⟨e0, e1, e2, e3, e4, e5⟩ := block_indices t
  have ht : t.val = (i 0).val / 5000 := rfl
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region is the biased array of the arrays the region was entered with. -/
theorem array_eq (c : Dev nD) :
    (dat1 V c).arrAt 2 cfg1.N = Cert.Gcn.addBiasRelu (V c main_v17) (V c main_v18) :=
  (dat1 V c).arrAt_eq_of_cover 2 (Cert.Gcn.addBiasRelu (V c main_v17) (V c main_v18)) (fun t _ => flushed_eq V c t) blocks_cover

end Cert.KernelIdeal.Region1

end
-- ==== Proof.Region2.lean ====
/-
  Region 2, the second layer's projection, from blocks to the whole array.

  The grid has ten points; point t reads rows 5000·t … 5000·t + 4999 of the hidden features (all 128 columns), the whole
  [128, 40] weight matrix, and writes the same rows of the result. So what point t writes back is block t of h · W₂, the
  blocks tile the 50000 rows, and the array after the region is h · W₂ of the arrays the region was entered with.
-/
import proofs.«171624_j730144440782_1_alg».proof.Proof.Gen.KernelIdeal.Frame
import proofs.«171624_j730144440782_1_alg».proof.Proof.BlockValue
import proofs.«171624_j730144440782_1_alg».proof.Proof.LayerSpec

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the features' and the result's blocks are block row t, column block 0; the weights'
    block is always the whole matrix. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product. -/
theorem flushed_eq (c : Dev nD) (t : Fin cfg2.N) :
    (dat2 V c).flushed 2 t = ((cfg2.win 2).blk t).view.read (Elt Ideal) (Cert.Gcn.project2 (V c main_v19) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x40) origin]
  obtain ⟨e0, e1, e2, e3, e4, e5⟩ := block_indices t
  funext j
  obtain ⟨p, q, rfl⟩ : ∃ (p : Fin 5000) (q : Fin 40), j = ix2 p q := ⟨j 0, j 1, eq_ix2 j⟩
  refine (BlockValue.proj2_apply (iblk2 V c 0 t) (iblk2 V c 1 t) p q).trans ?_
  show _ = Cert.Gcn.project2 (V c main_v19) (V c main_arg5) (((cfg2.win 2).blk t).view.emb (ix2 p q))
  unfold Cert.Gcn.project2
  refine Finset.sum_congr rfl fun k _ => ?_
  have hx : iblk2 V c 0 t (ix2 p k) = V c main_v19 (ix2 ((((cfg2.win 2).blk t).view.emb (ix2 p q)) 0) k) := by
    show V c main_v19 (((cfg2.win 0).blk t).view.emb (ix2 p k)) = _
    refine congrArg (V c main_v19) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q) = V c main_arg5 (ix2 k ((((cfg2.win 2).blk t).view.emb (ix2 p q)) 1)) := by
    show V c main_arg5 (((cfg2.win 1).blk t).view.emb (ix2 k q)) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 40 + 1 * q.val = win2_2.index t (1 : Fin 2) * 40 + 1 * q.val; omega
  rw [hx, hw]

/-- An entry of the result array lies in point t's block iff each coordinate lies in the block's range. -/
theorem mem_block (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v20).slice (win2_2.rect t)).set ↔ _
  rw [View.set_slice_whole, Rect.mem_set_unit]
  exact Iff.rfl

/-- Row r lies in the block of point r / 5000: the ten blocks tile the array. -/
theorem blocks_cover (i : S50000x40.Idx) : ∃ t : Fin cfg2.N, (cfg2.win 2).flush t = true ∧ i ∈ ((cfg2.win 2).blk t).view.set := by
  have h0 : (i 0).val < 50000 := (i 0).isLt
  have h1 : (i 1).val < 40 := (i 1).isLt
  have hN : grid2.N = 10 := N_2
  let t : Fin cfg2.N := ⟨(i 0).val / 5000, by show _ < grid2.N; omega⟩
  refine ⟨t, flush2_2 t, ?_⟩
  rw [mem_block]
  obtain ⟨e0, e1, e2, e3, e4, e5⟩ := block_indices t
  have ht : t.val = (i 0).val / 5000 := rfl
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The result array after the region is the product of the arrays the region was entered with. -/
theorem array_eq (c : Dev nD) :
    (dat2 V c).arrAt 2 cfg2.N = Cert.Gcn.project2 (V c main_v19) (V c main_arg5) :=
  (dat2 V c).arrAt_eq_of_cover 2 (Cert.Gcn.project2 (V c main_v19) (V c main_arg5)) (fun t _ => flushed_eq V c t) blocks_cover

end Cert.KernelIdeal.Region2

end
-- ==== Proof.Region3.lean ====
/-
  Region 3, the second layer's bias, from blocks to the whole array.

  The grid has ten points; point t reads rows 5000·t … 5000·t + 4999 of the aggregated messages, the whole bias row
  [1, 40], and writes the same rows of a + b. The blocks tile the 50000 rows, so the array after the region is a + b of
  the arrays the region was entered with.
-/
import proofs.«171624_j730144440782_1_alg».proof.Proof.Gen.KernelIdeal.Frame
import proofs.«171624_j730144440782_1_alg».proof.Proof.BlockValue
import proofs.«171624_j730144440782_1_alg».proof.Proof.LayerSpec

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the aggregated messages' and the result's blocks are block row t, column block 0;
    the bias row's block is always the whole row. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the biased array. -/
theorem flushed_eq (c : Dev nD) (t : Fin cfg3.N) :
    (dat3 V c).flushed 2 t = ((cfg3.win 2).blk t).view.read (Elt Ideal) (Cert.Gcn.addBias (V c main_v37) (V c main_v38)) := by
  show (cfg3.win 2).cut (grid3.coords t) ((dat3 V c).after 2 t) = _
  rw [after3_2]
  unfold out3_2
  rw [View.canon_unit_zero origin]
  simp only [View.ld_unit_zero (S := S5000x40) origin, View.ld_unit_zero (S := S1x40) origin]
  obtain ⟨e0, e1, e2, e3, e4, e5⟩ := block_indices t
  funext j
  obtain ⟨p, q, rfl⟩ : ∃ (p : Fin 5000) (q : Fin 40), j = ix2 p q := ⟨j 0, j 1, eq_ix2 j⟩
  refine (BlockValue.bias_apply (iblk3 V c 0 t) (iblk3 V c 1 t) p q).trans ?_
  show _ = Cert.Gcn.addBias (V c main_v37) (V c main_v38) (((cfg3.win 2).blk t).view.emb (ix2 p q))
  unfold Cert.Gcn.addBias
  have hx : iblk3 V c 0 t (ix2 p q) = V c main_v37 (((cfg3.win 2).blk t).view.emb (ix2 p q)) := by
    show V c main_v37 (((cfg3.win 0).blk t).view.emb (ix2 p q)) = _
    refine congrArg (V c main_v37) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 40 + 1 * q.val = win3_2.index t (1 : Fin 2) * 40 + 1 * q.val; omega
  have hb : iblk3 V c 1 t (ix2 0 q) = V c main_v38 (ix2 0 ((((cfg3.win 2).blk t).view.emb (ix2 p q)) 1)) := by
    show V c main_v38 (((cfg3.win 1).blk t).view.emb (ix2 0 q)) = _
    refine congrArg (V c main_v38) (funext fun a => Fin.ext ?_)
    match a with
    | ⟨0, _⟩ => show win3_1.index t (0 : Fin 2) * 1 + 1 * 0 = 0; omega
    | ⟨1, _⟩ => show win3_1.index t (1 : Fin 2) * 40 + 1 * q.val = win3_2.index t (1 : Fin 2) * 40 + 1 * q.val; omega
  rw [hx, hb]

/-- An entry of the result array lies in point t's block iff each coordinate lies in the block's range. -/
theorem mem_block (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v39).slice (win3_2.rect t)).set ↔ _
  rw [View.set_slice_whole, Rect.mem_set_unit]
  exact Iff.rfl

/-- Row r lies in the block of point r / 5000: the ten blocks tile the array. -/
theorem blocks_cover (i : S50000x40.Idx) : ∃ t : Fin cfg3.N, (cfg3.win 2).flush t = true ∧ i ∈ ((cfg3.win 2).blk t).view.set := by
  have h0 : (i 0).val < 50000 := (i 0).isLt
  have h1 : (i 1).val < 40 := (i 1).isLt
  have hN : grid3.N = 10 := N_3
  let t : Fin cfg3.N := ⟨(i 0).val / 5000, by show _ < grid3.N; omega⟩
  refine ⟨t, flush3_2 t, ?_⟩
  rw [mem_block]
  obtain ⟨e0, e1, e2, e3, e4, e5⟩ := block_indices t
  have ht : t.val = (i 0).val / 5000 := rfl
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- The result array after the region is the biased array of the arrays the region was entered with. -/
theorem array_eq (c : Dev nD) :
    (dat3 V c).arrAt 2 cfg3.N = Cert.Gcn.addBias (V c main_v37) (V c main_v38) :=
  (dat3 V c).arrAt_eq_of_cover 2 (Cert.Gcn.addBias (V c main_v37) (V c main_v38)) (fun t _ => flushed_eq V c t) blocks_cover

end Cert.KernelIdeal.Region3

end
-- ==== Proof.HostStretch.lean ====
/-
  The two stretches of host operations between the kernel regions, each as one function of the arrays it reads.

  A stretch takes the projected features h [50000, d], the edge list [2, 800000] and the edge weights [800000]. Row 0 of
  the edge list holds the source nodes (a negative one is wrapped by adding 50000), row 1 the destination nodes. The
  stretch gathers row src(e) of h for every edge e, scales it by the edge's weight, and adds it into row dst(e) of an
  array of zeros: `aggregate1` (d = 128) and `aggregate2` (d = 40). It also reshapes the bias vector [d] to the row
  [1, d] the next region reads. What a stretch leaves in the buffers the next region reads is stated at ANY contents
  `W` of the buffers before it, and the argument arrays it does not write are kept.
-/
import proofs.«171624_j730144440782_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout

set_option maxRecDepth 16384

noncomputable section

namespace Cert.KernelIdeal.HostStretch

open Cert.KernelIdeal Cert.KernelIdeal.Gen Idealize.ShloMosaic Idealize.ShloMosaic.TcCoe Idealize.SL.Sem Idealize.ShloMosaic.StableHlo

/-- Row 0 of the edge list, as a vector of 800000 node numbers, a negative one wrapped around by adding 50000. -/
def wrappedSources (ei : (⟨S2x800000, .i32⟩ : BufTy).Contents (Elt Ideal)) : (⟨S800000, .i32⟩ : BufTy).Contents (Elt Ideal) :=
  select
    (cmpi .slt (shapeCast S800000 (extractStridedSlice S1x800000 ![0, 0] ei slices_S2x800000_S1x800000_0_0) shapeCasts_S1x800000_S800000)
      (broadcastInDim S800000 ![] bcast_S_S800000 (constantI S_ 32 0#32)))
    (addi (shapeCast S800000 (extractStridedSlice S1x800000 ![0, 0] ei slices_S2x800000_S1x800000_0_0) shapeCasts_S1x800000_S800000)
      (broadcastInDim S800000 ![] bcast_S_S800000 (constantI S_ 32 50000#32)))
    (shapeCast S800000 (extractStridedSlice S1x800000 ![0, 0] ei slices_S2x800000_S1x800000_0_0) shapeCasts_S1x800000_S800000)

/-- Row 1 of the edge list, as a vector of 800000 node numbers. -/
def destinations (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The first layer's messages summed at their destinations: row dst(e) of the result collects w(e) · h(src(e), ·) over the edges e. -/
def aggregate1 (h : (⟨S50000x128, .f32⟩ : BufTy).Contents (Elt Ideal)) (ei : (⟨S2x800000, .i32⟩ : BufTy).Contents (Elt Ideal)) (ew : (⟨S800000, .f32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (destinations ei))
    (mulf (Host.gather gather_S50000x128_S800000x1_S800000x128_1_0_n_n_0_1_1128 h (broadcastInDim S800000x1 ![0] bcast_S800000_S800000x1_0 (wrappedSources ei)))
      (broadcastInDim S800000x128 ![0, 1] bcast_S800000x1_S800000x128_0_1 (broadcastInDim S800000x1 ![0] bcast_S800000_S800000x1_0 ew)))

/-- The second layer's messages summed at their destinations, 40 columns wide. -/
def aggregate2 (h : (⟨S50000x40, .f32⟩ : BufTy).Contents (Elt Ideal)) (ei : (⟨S2x800000, .i32⟩ : BufTy).Contents (Elt Ideal)) (ew : (⟨S800000, .f32⟩ : BufTy).Contents (Elt Ideal)) : (⟨S50000x40, .f32⟩ : BufTy).Contents (Elt Ideal) :=
  Host.scatterAdd scatter_S50000x40_S800000x1_S800000x40_1_0_0_1
    (broadcastInDim S50000x40 ![] bcast_S_S50000x40 (constant (F := Ideal) S_ .f32 0x00000000#32))
    (broadcastInDim S800000x1 ![0] bcast_S800000_S800000x1_0 (destinations ei))
    (mulf (Host.gather gather_S50000x40_S800000x1_S800000x40_1_0_n_n_0_1_140 h (broadcastInDim S800000x1 ![0] bcast_S800000_S800000x1_0 (wrappedSources ei)))
      (broadcastInDim S800000x40 ![0, 1] bcast_S800000x1_S800000x40_0_1 (broadcastInDim S800000x1 ![0] bcast_S800000_S800000x1_0 ew)))

/-- The first layer's bias vector as the one-row array the bias region reads. -/
def biasRow1 (b : (⟨S128, .f32⟩ : BufTy).Contents (Elt Ideal)) : (⟨S1x128, .f32⟩ : BufTy).Contents (Elt Ideal) := shapeCast S1x128 b shapeCasts_S128_S1x128

/-- The second layer's bias vector as the one-row array the bias region reads. -/
def biasRow2 (b : (⟨S40, .f32⟩ : BufTy).Contents (Elt Ideal)) : (⟨S1x40, .f32⟩ : BufTy).Contents (Elt Ideal) := shapeCast S1x40 b shapeCasts_S40_S1x40

/-- Entry (0, q) of the first bias row is entry q of the bias vector. -/
theorem biasRow1_apply (b : (⟨S128, .f32⟩ : BufTy).Contents (Elt Ideal)) (q : Fin 128) :
    biasRow1 b (ValueIdx.ix2 (0 : Fin 1) q) = b (ValueIdx.ix1 q) := ValueIdx.shapeCast_a_1a_apply b _ 0 q

/-- Entry (0, q) of the second bias row is entry q of the bias vector. -/
theorem biasRow2_apply (b : (⟨S40, .f32⟩ : BufTy).Contents (Elt Ideal)) (q : Fin 40) :
    biasRow2 b (ValueIdx.ix2 (0 : Fin 1) q) = b (ValueIdx.ix1 q) := ValueIdx.shapeCast_a_1a_apply b _ 0 q

/-! ## The first stretch -/

/-- After the first stretch the aggregation buffer holds `aggregate1` of the projection's result, the edge list and the
    edge weights as they were before it. -/
theorem hostOps1_aggregate (W : Valuation τ sig (Elt Ideal)) :
    StableHlo.after hostOps1 W (Proc.devRef .tc main_v17)
      = aggregate1 (W (Proc.devRef .tc main_v0)) (W (Proc.devRef .tc main_arg1)) (W (Proc.devRef .tc main_arg2)) := by
  after_results_simp
  rfl

/-- … and the bias row's buffer holds the first bias vector, reshaped. -/
theorem hostOps1_biasRow (W : Valuation τ sig (Elt Ideal)) :
    StableHlo.after hostOps1 W (Proc.devRef .tc main_v18) = biasRow1 (W (Proc.devRef .tc main_arg4)) := by
  after_results
  rfl

theorem hostOps1_keeps_arg1 (W : Valuation τ sig (Elt Ideal)) :
    StableHlo.after hostOps1 W (Proc.devRef .tc main_arg1) = W (Proc.devRef .tc main_arg1) := by
  after_results

theorem hostOps1_keeps_arg2 (W : Valuation τ sig (Elt Ideal)) :
    StableHlo.after hostOps1 W (Proc.devRef .tc main_arg2) = W (Proc.devRef .tc main_arg2) := by
  after_results

theorem hostOps1_keeps_arg5 (W : Valuation τ sig (Elt Ideal)) :
    StableHlo.after hostOps1 W (Proc.devRef .tc main_arg5) = W (Proc.devRef .tc main_arg5) := by
  after_results

theorem hostOps1_keeps_arg6 (W : Valuation τ sig (Elt Ideal)) :
    StableHlo.after hostOps1 W (Proc.devRef .tc main_arg6) = W (Proc.devRef .tc main_arg6) := by
  after_results

/-! ## The second stretch -/

/-- After the second stretch the aggregation buffer holds `aggregate2` of the second projection's result, the edge list
    and the edge weights as they were before it. -/
theorem hostOps3_aggregate (W : Valuation τ sig (Elt Ideal)) :
    StableHlo.after hostOps3 W (Proc.devRef .tc main_v37)
      = aggregate2 (W (Proc.devRef .tc main_v20)) (W (Proc.devRef .tc main_arg1)) (W (Proc.devRef .tc main_arg2)) := by
  after_results_simp
  rfl

/-- … and the bias row's buffer holds the second bias vector, reshaped. -/
theorem hostOps3_biasRow (W : Valuation τ sig (Elt Ideal)) :
    StableHlo.after hostOps3 W (Proc.devRef .tc main_v38) = biasRow2 (W (Proc.devRef .tc main_arg6)) := by
  after_results
  rfl

end Cert.KernelIdeal.HostStretch

end
-- ==== Proof.Forward.lean ====
/-
  The whole forward pass as one function of the seven argument arrays, over the extended reals:

      out = (A · (max(A · (x W₁) + b₁, 0) W₂)) + b₂,

  where A · h is the edge aggregation of a stretch of host operations (gather the source rows of h, scale by the edge
  weights, add at the destination rows) and the biases are added to every row.
-/
import proofs.«171624_j730144440782_1_alg».proof.Proof.LayerSpec
import proofs.«171624_j730144440782_1_alg».proof.Proof.HostStretch

noncomputable section

namespace Cert.KernelIdeal

open Idealize.ShloMosaic Cert.KernelIdeal.HostStretch

/-- Two graph-convolution layers, the first followed by the rectifier. -/
def forward (x : (⟨S50000x128, .f32⟩ : BufTy).Contents (Elt Ideal)) (ei : (⟨S2x800000, .i32⟩ : BufTy).Contents (Elt Ideal)) (ew : (⟨S800000, .f32⟩ : BufTy).Contents (Elt Ideal))
    (w1 : (⟨S128x128, .f32⟩ : BufTy).Contents (Elt Ideal)) (b1 : (⟨S128, .f32⟩ : BufTy).Contents (Elt Ideal)) (w2 : (⟨S128x40, .f32⟩ : BufTy).Contents (Elt Ideal)) (b2 : (⟨S40, .f32⟩ : BufTy).Contents (Elt Ideal)) :
    (⟨S50000x40, .f32⟩ : BufTy).Contents (Elt Ideal) :=
  Cert.Gcn.addBias
    (aggregate2 (Cert.Gcn.project2 (Cert.Gcn.addBiasRelu (aggregate1 (Cert.Gcn.project1 x w1) ei ew) (biasRow1 b1)) w2) ei ew)
    (biasRow2 b2)

end Cert.KernelIdeal

end
-- ==== Proof.KernelValue.lean ====
/-
  The idealized kernel's result as a function of its arguments.

  Reading the buffer contents at the six segment boundaries backwards from the result: the last region adds the bias row
  to the second aggregation; the second stretch aggregates the second projection and reshapes b₂; the second projection
  multiplies the rectified hidden features by W₂; the bias-and-rectifier region adds b₁'s row to the first aggregation;
  the first stretch aggregates the first projection and reshapes b₁; the first projection multiplies x by W₁. No segment
  writes an argument array, so every argument read along the way is the launch memory's.
-/
import proofs.«171624_j730144440782_1_alg».proof.Proof.Gen.KernelIdeal.Frame
import proofs.«171624_j730144440782_1_alg».proof.Proof.Region0
import proofs.«171624_j730144440782_1_alg».proof.Proof.Region1
import proofs.«171624_j730144440782_1_alg».proof.Proof.Region2
import proofs.«171624_j730144440782_1_alg».proof.Proof.Region3
import proofs.«171624_j730144440782_1_alg».proof.Proof.HostStretch
import proofs.«171624_j730144440782_1_alg».proof.Proof.Forward

set_option maxRecDepth 16384

noncomputable section

namespace Cert.KernelIdeal.ResultValue

open Cert.KernelIdeal Cert.KernelIdeal.Gen Cert.KernelIdeal.HostStretch
open Idealize.ShloMosaic Idealize.ShloMosaic.TcCoe Idealize.SL.Sem

variable (m : (ℓ : Loc nD τ sig) → Buf (Elt Ideal) ℓ) (ρ : Dev nD → PrngReg)

/-! ## The arguments at the boundaries where they are read -/

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

theorem W2_arg1 (c : Dev nD) : W2 m ρ c (Proc.devRef .tc main_arg1) = m ((c : Thread nD τ).loc main_arg1) :=
  (hostOps1_keeps_arg1 (W1 m ρ c)).trans (W1_arg1 m ρ c)
theorem W2_arg2 (c : Dev nD) : W2 m ρ c (Proc.devRef .tc main_arg2) = m ((c : Thread nD τ).loc main_arg2) :=
  (hostOps1_keeps_arg2 (W1 m ρ c)).trans (W1_arg2 m ρ c)
theorem W2_arg5 (c : Dev nD) : W2 m ρ c (Proc.devRef .tc main_arg5) = m ((c : Thread nD τ).loc main_arg5) :=
  (hostOps1_keeps_arg5 (W1 m ρ c)).trans (W1_arg5 m ρ c)
theorem W2_arg6 (c : Dev nD) : W2 m ρ c (Proc.devRef .tc main_arg6) = m ((c : Thread nD τ).loc main_arg6) :=
  (hostOps1_keeps_arg6 (W1 m ρ c)).trans (W1_arg6 m ρ c)

theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg5 (c : Dev nD) : W3 m ρ c (Proc.devRef .tc main_arg5) = m ((c : Thread nD τ).loc main_arg5) :=
  (W3_of_ne m ρ c main_arg5 (by decide)).trans (W2_arg5 m ρ c)
theorem W3_arg6 (c : Dev nD) : W3 m ρ c (Proc.devRef .tc main_arg6) = m ((c : Thread nD τ).loc main_arg6) :=
  (W3_of_ne m ρ c main_arg6 (by decide)).trans (W2_arg6 m ρ c)

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## The result -/

/-- The result buffer after the run holds the forward pass of the launch memory's argument arrays. -/
theorem result_eq (c : Dev nD) :
    W6 m ρ c (Proc.devRef .tc main_v39)
      = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have r3 : W6 m ρ c (Proc.devRef .tc main_v39) = Cert.Gcn.addBias (V5 m ρ c main_v37) (V5 m ρ c main_v38) :=
    (W6_arr m ρ c 2).trans (Region3.array_eq (V5 m ρ) c)
  have s2a : V5 m ρ c main_v37 = aggregate2 (W4 m ρ c (Proc.devRef .tc main_v20)) (W4 m ρ c (Proc.devRef .tc main_arg1)) (W4 m ρ c (Proc.devRef .tc main_arg2)) :=
    hostOps3_aggregate (W4 m ρ c)
  have s2b : V5 m ρ c main_v38 = biasRow2 (W4 m ρ c (Proc.devRef .tc main_arg6)) := hostOps3_biasRow (W4 m ρ c)
  have r2 : W4 m ρ c (Proc.devRef .tc main_v20) = Cert.Gcn.project2 (V3 m ρ c main_v19) (V3 m ρ c main_arg5) :=
    (W4_arr m ρ c 2).trans (Region2.array_eq (V3 m ρ) c)
  have r1 : V3 m ρ c main_v19 = Cert.Gcn.addBiasRelu (V2 m ρ c main_v17) (V2 m ρ c main_v18) :=
    (W3_arr m ρ c 2).trans (Region1.array_eq (V2 m ρ) c)
  have a5 : V3 m ρ c main_arg5 = m ((c : Thread nD τ).loc main_arg5) := W3_arg5 m ρ c
  have s1a : V2 m ρ c main_v17 = aggregate1 (W1 m ρ c (Proc.devRef .tc main_v0)) (W1 m ρ c (Proc.devRef .tc main_arg1)) (W1 m ρ c (Proc.devRef .tc main_arg2)) :=
    hostOps1_aggregate (W1 m ρ c)
  have s1b : V2 m ρ c main_v18 = biasRow1 (W1 m ρ c (Proc.devRef .tc main_arg4)) := hostOps1_biasRow (W1 m ρ c)
  have r0 : W1 m ρ c (Proc.devRef .tc main_v0) = Cert.Gcn.project1 (V0 m ρ c main_arg0) (V0 m ρ c main_arg3) :=
    (W1_arr m ρ c 2).trans (Region0.array_eq (V0 m ρ) c)
  rw [r3, s2a, s2b, r2, r1, a5, s1a, s1b, r0, W4_arg1, W4_arg2, W4_arg6, W1_arg1, W1_arg2, W1_arg4]
  rfl

end Cert.KernelIdeal.ResultValue

end
-- ==== Proof.RefValue.lean ====
/-
  The reference computes the same forward pass.

  Its two `dot_general`s are the two projections (the same sums over the 128 contracted coordinates); its bias adds
  broadcast the bias vector [d] to [1, d] and then to [50000, d], which at entry (r, q) reads b(q), as does the row the
  kernel's reshape [d] → [1, d] makes; its rectifier is the maximum with the same zero word; and its gather, scale and
  scatter-add are the very operations of the kernel's host stretches, applied to equal arrays.
-/
import proofs.«171624_j730144440782_1_alg».proof.Proof.Gen.ReferenceIdeal.Read
import proofs.«171624_j730144440782_1_alg».proof.Proof.Forward
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The projections -/

/-- The first `dot_general` is x · W₁. -/
theorem dot1_eq (h : FVec Ideal S50000x128 .f32) (w : FVec Ideal S128x128 .f32) :
    Host.dotGeneral dot_S50000x128_S128x128_S50000x128_1_0_0_1_n_n none h w = Cert.Gcn.project1 h w := by
  funext i
  obtain ⟨r, q, rfl⟩ : ∃ (r : Fin 50000) (q : Fin 128), i = ix2 r q := ⟨i 0, i 1, eq_ix2 i⟩
  show Host.dotGeneral dot_S50000x128_S128x128_S50000x128_1_0_0_1_n_n none h w (ix2 r q) = ∑ k : Fin 128, h (ix2 r k) * w (ix2 k q)
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs_main_v0_0 _ _
    | ⟨1, _⟩ => exact (lhs_main_v0_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs_main_v0_0 _ _).trans hk
    | ⟨1, _⟩ => exact rhs_main_v0_1 _ _)
  rw [el, er]

/-- The second `dot_general` is h · W₂, whatever the hidden features h. -/
theorem dot2_eq (h : FVec Ideal S50000x128 .f32) (w : FVec Ideal S128x40 .f32) :
    Host.dotGeneral dot_S50000x128_S128x40_S50000x40_1_0_0_1_n_n none h w = Cert.Gcn.project2 h w := by
  funext i
  obtain ⟨r, q, rfl⟩ : ∃ (r : Fin 50000) (q : Fin 40), i = ix2 r q := ⟨i 0, i 1, eq_ix2 i⟩
  show Host.dotGeneral dot_S50000x128_S128x40_S50000x40_1_0_0_1_n_n none h w (ix2 r q) = ∑ k : Fin 128, h (ix2 r k) * w (ix2 k q)
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 r q) ((contrEquiv1 dot_S50000x128_S128x40_S50000x40_1_0_0_1_n_n 128 rfl rfl).symm k) = ix2 r k := funext fun a => Fin.ext (by
    match a with
    | ⟨0, _⟩ => exact lhs_main_v22_0 _ _
    | ⟨1, _⟩ => exact (lhs_main_v22_1 _ _).trans hk)
  have er : dot_S50000x128_S128x40_S50000x40_1_0_0_1_n_n.rhsIdx (ix2 r q) ((contrEquiv1 dot_S50000x128_S128x40_S50000x40_1_0_0_1_n_n 128 rfl rfl).symm k) = ix2 k q := funext fun a => Fin.ext (by
    match a with
    | ⟨0, _⟩ => exact (rhs_main_v22_0 _ _).trans hk
    | ⟨1, _⟩ => exact rhs_main_v22_1 _ _)
  rw [el, er]

/-! ## The biases -/

/-- Broadcasting b₁ to every row, adding, and taking the maximum with zero is `addBiasRelu` over the row the kernel's
    reshape makes of b₁. -/
theorem biasRelu_eq (a : FVec Ideal S50000x128 .f32) (b : FVec Ideal S128 .f32) :
    maximumf (addf a (val_main_v19 (F := Ideal) b)) (val_main_call0_v0 (F := Ideal))
      = Cert.Gcn.addBiasRelu a (Cert.KernelIdeal.HostStretch.biasRow1 b) := by
  funext i
  obtain ⟨r, q, rfl⟩ : ∃ (r : Fin 50000) (q : Fin 128), i = ix2 r q := ⟨i 0, i 1, eq_ix2 i⟩
  have e : idx_main_v18 (idx_main_v19 (ix2 r q)) = ix1 q := funext fun a => Fin.ext (by match a with | ⟨0, _⟩ => rfl)
  show max (a (ix2 r q) + val_main_v19 (F := Ideal) b (ix2 r q)) (val_main_call0_v0 (F := Ideal) (ix2 r q))
    = max (a (ix2 r q) + Cert.KernelIdeal.HostStretch.biasRow1 b (ix2 (0 : Fin 1) q)) (Ideal.ofBits .f32 0x00000000#32)
  rw [val_main_v19_apply, val_main_v18_apply, val_main_call0_v0_apply, e, Cert.KernelIdeal.HostStretch.biasRow1_apply]
  rfl

/-- Broadcasting b₂ to every row and adding is `addBias` over the row the kernel's reshape makes of b₂. -/
theorem bias_eq (a : FVec Ideal S50000x40 .f32) (b : FVec Ideal S40 .f32) :
    addf a (val_main_v41 (F := Ideal) b) = Cert.Gcn.addBias a (Cert.KernelIdeal.HostStretch.biasRow2 b) := by
  funext i
  obtain ⟨r, q, rfl⟩ : ∃ (r : Fin 50000) (q : Fin 40), i = ix2 r q := ⟨i 0, i 1, eq_ix2 i⟩
  have e : idx_main_v40 (idx_main_v41 (ix2 r q)) = ix1 q := funext fun a => Fin.ext (by match a with | ⟨0, _⟩ => rfl)
  show a (ix2 r q) + val_main_v41 (F := Ideal) b (ix2 r q)
    = a (ix2 r q) + Cert.KernelIdeal.HostStretch.biasRow2 b (ix2 (0 : Fin 1) q)
  rw [val_main_v41_apply, val_main_v40_apply, e, Cert.KernelIdeal.HostStretch.biasRow2_apply]

/-! ## The edge aggregations: the same host operations on both sides -/

/-- The reference's first gather, scale and scatter-add is the kernel's first stretch's: the same operations with the
    same dimension numbers, whatever the projected features. -/
theorem aggregate1_eq (h : FVec Ideal S50000x128 .f32) (ei : (⟨S2x800000, .i32⟩ : BufTy).Contents (Elt Ideal)) (ew : FVec Ideal S800000 .f32) :
    Host.scatterAdd scatter_S50000x128_S800000x1_S800000x128_1_0_0_1 (val_main_v15 (F := Ideal)) (val_main_v16 (F := Ideal) ei)
        (mulf (Host.gather gather_S50000x128_S800000x1_S800000x128_1_0_n_n_0_1_1128 h (val_main_v10 (F := Ideal) ei)) (val_main_v13 (F := Ideal) ew))
      = Cert.KernelIdeal.HostStretch.aggregate1 h ei ew := rfl

/-- The reference's second gather, scale and scatter-add is the kernel's second stretch's. -/
theorem aggregate2_eq (h : FVec Ideal S50000x40 .f32) (ei : (⟨S2x800000, .i32⟩ : BufTy).Contents (Elt Ideal)) (ew : FVec Ideal S800000 .f32) :
    Host.scatterAdd scatter_S50000x40_S800000x1_S800000x40_1_0_0_1 (val_main_v37 (F := Ideal)) (val_main_v38 (F := Ideal) ei)
        (mulf (Host.gather gather_S50000x40_S800000x1_S800000x40_1_0_n_n_0_1_140 h (val_main_v32 (F := Ideal) ei)) (val_main_v35 (F := Ideal) ew))
      = Cert.KernelIdeal.HostStretch.aggregate2 h ei ew := rfl

/-! ## The whole reference -/

/-- The reference's result, as its generated last stage states it, is the forward pass of its arguments. -/
theorem reference_eq (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    val_main_v42 (F := Ideal) x0 x1 x2 x3 x4 x5 x6 = Cert.KernelIdeal.forward x0 x1 x2 x3 x4 x5 x6 := by
  unfold val_main_v42 val_main_v39 val_main_v36 val_main_v33 val_main_v22 val_main_v21 val_main_v20 val_main_v17
    val_main_v14 val_main_v11 val_main_v0
  rw [dot1_eq, aggregate1_eq, biasRelu_eq, dot2_eq, aggregate2_eq, bias_eq]
  rfl

end Cert.ReferenceIdeal.RefValue

end
-- ==== Proof.lean ====
/-
  A two-layer graph convolution on 50000 nodes and 800000 weighted edges:

      out = A · (max(A · (x W₁) + b₁, 0) W₂) + b₂ ,

  where A · h gathers the source rows of h, scales each by its edge's weight and adds it into its destination row.

  The kernel computes the two dense projections and the two bias passes in four pipelined regions of ten blocks of 5000
  rows each, and the edge aggregations by host operations between them; the reference computes everything by host
  operations. Over the extended reals the two agree entry by entry, with no hypothesis on the inputs:
    * a region's matrix product of a block of rows with the whole weight matrix, accumulated from zero, is the same
      sum over the 128 contracted coordinates as the reference's `dot_general` at that row (rounding the operands to
      bf16 is the identity on extended reals), and the ten blocks tile the rows;
    * adding the bias held as a [1, d] row to every row of a block is adding the bias vector broadcast to [50000, d];
    * the maximum with zero is the same operation against the same zero word;
    * the gather, scale and scatter-add are the very same host operations on both sides, applied to equal arrays, so
      they are carried as one function and never opened.
  The two kernel programs' frames are the generated ones; the reference's is its generated run with the result dropped. The
  idealization rewrote no operation, so there is nothing to preserve beyond the text itself.
-/
import proofs.«171624_j730144440782_1_alg».proof.Defs
import proofs.«171624_j730144440782_1_alg».proof.Proof.Gen.Kernel
import proofs.«171624_j730144440782_1_alg».proof.Proof.Gen.Kernel.Frame
import proofs.«171624_j730144440782_1_alg».proof.Proof.Gen.KernelIdeal
import proofs.«171624_j730144440782_1_alg».proof.Proof.Gen.KernelIdeal.Frame
import proofs.«171624_j730144440782_1_alg».proof.Proof.Gen.ReferenceIdeal
import proofs.«171624_j730144440782_1_alg».proof.Proof.Gen.ReferenceIdeal.Run
import proofs.«171624_j730144440782_1_alg».proof.Proof.Gen.ReferenceIdeal.Read
import proofs.«171624_j730144440782_1_alg».proof.Proof.Gen.Pre_finite_inputs
import proofs.«171624_j730144440782_1_alg».proof.Proof.KernelRun
import proofs.«171624_j730144440782_1_alg».proof.Proof.KernelValue
import proofs.«171624_j730144440782_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the forward pass of the launch arguments in their result buffer. -/
theorem algebraic : Cert.algebraic_KernelIdeal_ReferenceIdeal := by
  intro m ρ m' ρ' _ hagree
  refine ⟨fun c => Cert.KernelIdeal.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.ResultValue.result_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v42_eq, Cert.ReferenceIdeal.RefValue.reference_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
